-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S128x64 .f32) (main_arg3 : FVec F S128 .f32) (main_arg4 : FVec F S128x128 .f32) (main_arg5 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S1x128 : Shape := ⟨2, ![1, 128]⟩
abbrev S50000x128 : Shape := ⟨2, ![50000, 128]⟩
abbrev S2000x64 : Shape := ⟨2, ![2000, 64]⟩
abbrev S2000x128 : Shape := ⟨2, ![2000, 128]⟩

abbrev nBuf : Space → Nat
  | .hbm => 28
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S64x128, .f32⟩
  | .hbm, ⟨24, _⟩ => ⟨S128x128, .f32⟩
  | .hbm, ⟨25, _⟩ => ⟨S1x128, .f32⟩
  | .hbm, ⟨26, _⟩ => ⟨S1x128, .f32⟩
  | .hbm, ⟨27, _⟩ => ⟨S50000x128, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S128x64_S64x128_1_0 : S128x64.Transposes [1, 0] S64x128
  transposes_S128x128_S128x128_1_0 : S128x128.Transposes [1, 0] S128x128
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S50000x128 : Shape := ⟨2, ![50000, 128]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S50000x64, .f32⟩
  | .hbm, ⟨24, _⟩ => ⟨S64x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S128x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibHostMatDot.lean ====
/-
  The host's matrix product of two rank-2 operands, `x · y`, read at an entry.

  For dimension numbers `d` over operands of shapes [M, K] and [K, N] and a result of shape [M, N] whose one
  contracted axis is the second of the left operand and the first of the right — given as the four coordinate
  facts of `d`'s operand index maps — a host `dot_general` at the ideal instance is, at entry (p, q),

      Σ_{k < K} lhs[p, k] · rhs[k, q],

  the same sum a matrix unit's product into the zero accumulator reads as.  The contraction's index type is
  re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- The host's `x · y` at entry (p, q): the sum over the shared axis of the products of row `p` of the left operand
    and column `q` of the right. The hypotheses say where the record's operand index maps read: the left operand
    at (row of the entry, contraction position), the right at (contraction position, column of the entry). -/
theorem host_mat_dot {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibBcastInDim.lean ====
/-
  A `broadcast_in_dim` of small shapes read at an index given by coordinates: a scalar spread over any shape; a
  length-`a` vector set up as the column `[a, 1]`; a column `[a, 1]` repeated along the rows to `[a, b]`; a length-`b`
  vector set up as the row `[1, b]`; a row `[1, b]` repeated down the columns to `[a, b]`. Each reads the operand at the
  coordinates the result's axes hand down, and at `0` on the operand's unit axes.
-/
import Idealize.ShloMosaic.Lib.Pipeline.Value
import Idealize.ShloMosaic.Lib.ValueIdx

namespace Idealize.ShloMosaic.ValueIdx

open Idealize.ShloMosaic

variable {α : Type}

/-- A scalar spread over a shape reads the scalar everywhere. -/
theorem bcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A length-`a` vector as the column `[a, 1]`: at `(i, z)` it reads the vector at `i`. -/
theorem bcastInDim_a_a1_apply {a : ℕ} (h : (⟨1, ![a]⟩ : Shape).BroadcastsInDim ⟨2, ![a, 1]⟩ (![0] : Fin 1 → Fin 2))
    (x : (⟨1, ![a]⟩ : Shape).Idx → α) (i : Fin a) (z : Fin 1) :
    broadcastInDim ⟨2, ![a, 1]⟩ (![0] : Fin 1 → Fin 2) h x (ix2 i z) = x (ix1 i) := by
  refine broadcastInDim_apply _ h x (ix2 i z) (ix1 i) fun ax => ?_
  match ax with
  | ⟨0, _⟩ =>
    show i.val = if a = 1 then 0 else i.val
    split
    · have := i.isLt; omega
    · rfl

/-- A column `[a, 1]` repeated to `[a, b]`: at `(i, j)` it reads the column at `(i, 0)`. -/
theorem bcastInDim_a1_ab_apply {a b : ℕ}
    (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A length-`b` vector as the row `[1, b]`: at `(z, j)` it reads the vector at `j`. -/
theorem bcastInDim_b_1b_apply {b : ℕ} (h : (⟨1, ![b]⟩ : Shape).BroadcastsInDim ⟨2, ![1, b]⟩ (![1] : Fin 1 → Fin 2))
    (x : (⟨1, ![b]⟩ : Shape).Idx → α) (z : Fin 1) (j : Fin b) :
    broadcastInDim ⟨2, ![1, b]⟩ (![1] : Fin 1 → Fin 2) h x (ix2 z j) = x (ix1 j) := by
  refine broadcastInDim_apply _ h x (ix2 z j) (ix1 j) fun ax => ?_
  match ax with
  | ⟨0, _⟩ =>
    show j.val = if b = 1 then 0 else j.val
    split
    · have := j.isLt; omega
    · rfl

/-- A row `[1, b]` repeated to `[a, b]`: at `(i, j)` it reads the row at `(0, j)`. -/
theorem bcastInDim_1b_ab_apply {a b : ℕ}
    (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl

end Idealize.ShloMosaic.ValueIdx
-- ==== Proof.LibDense.lean ====
/-
  A dense layer's arithmetic read at an entry, on the extended reals.

  The matrix unit's form: the operands narrowed to a shorter float format (the identity on extended reals), their
  product `x · w` accumulated from zero, and a one-row matrix `b` repeated down the rows and added: at entry (p, q)

      (Σ_{k < K} x[p, k] · w[k, q]) + b[0, q].

  The host's form: `dot_general` of the same operands plus a length-`N` vector set up as a row and repeated down the
  rows reads, at the same entry, (Σ_{k < K} x[p, k] · w[k, q]) + b[q].  A zero row leaves the product alone.

  The leaky rectifier `x ↦ if x ≥ 0 then x else c · x` is pointwise, so it is the same function of either form.
-/
import Idealize.ShloMosaic.PureOps.Ideal.Laws
import Idealize.ShloMosaic.Lib.ValueIdx
import Idealize.ShloMosaic.Lib.ValueLayout
import Idealize.ShloMosaic.Lib.Pipeline.Value
import proofs.«154093_j17411797418332_1_alg».proof.Proof.LibMatDot
import proofs.«154093_j17411797418332_1_alg».proof.Proof.LibHostMatDot
import proofs.«154093_j17411797418332_1_alg».proof.Proof.LibBcastInDim

noncomputable section

open scoped BigOperators

namespace Idealize.ShloMosaic.ValueIdx

open Idealize.ShloMosaic

/-- The matrix unit's dense layer at entry (p, q): the row-by-column sum plus the bias row's entry. -/
theorem matmul_bias_apply {R K N : Nat} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (c : d.contr.Idx), (d.lhsIdx j c 0).val = (j 0).val)
    (hl1 : ∀ (j : (⟨2, ![R, N]⟩ : Shape).Idx) (c : d.contr.Idx), (d.lhsIdx j c 1).val = (c ⟨0, by omega⟩).val)
    (hr0 : ∀ (j : (⟨2, ![R, N]⟩ : Shape).Idx) (c : d.contr.Idx), (d.rhsIdx j c 0).val = (c ⟨0, by omega⟩).val)
    (hr1 : ∀ (j : (⟨2, ![R, N]⟩ : Shape).Idx) (c : d.contr.Idx), (d.rhsIdx j c 1).val = (j 1).val)
    (x : FVec Ideal ⟨2, ![R, K]⟩ .f32) (w : FVec Ideal ⟨2, ![K, N]⟩ .f32) (b : FVec Ideal ⟨2, ![1, N]⟩ .f32)
    (hx : FTy.bf16.bits < FTy.f32.bits)
    (hb : (⟨2, ![1, N]⟩ : Shape).Broadcasts ⟨2, ![R, N]⟩) (p : Fin R) (q : Fin N) :
    addf (matmul d none (truncf .bf16 x hx) (truncf .bf16 w hx) (constant (F := Ideal) ⟨2, ![R, N]⟩ .f32 0x00000000#32))
        (broadcastTo ⟨2, ![R, N]⟩ b hb) (ix2 p q)
      = (∑ k : Fin K, x (ix2 p k) * w (ix2 k q)) + b (ix2 (0 : Fin 1) q) := by
  show matmul d none (truncf .bf16 x hx) (truncf .bf16 w hx) (constant (F := Ideal) ⟨2, ![R, N]⟩ .f32 0x00000000#32) (ix2 p q)
      + broadcastTo ⟨2, ![R, N]⟩ b hb (ix2 p q) = _
  rw [broadcastTo_1b_ab_apply]
  refine congrArg (· + b (ix2 (0 : Fin 1) q)) ?_
  exact mat_dot_zero d none hr hs hl0 hl1 hr0 hr1 (truncf .bf16 x hx) (truncf .bf16 w hx) p q

/-- The host's dense layer at entry (p, q): the row-by-column sum plus the bias vector's entry. -/
theorem host_dot_bias_apply {R K N : Nat} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (c : d.contr.Idx), (d.lhsIdx j c 0).val = (j 0).val)
    (hl1 : ∀ (j : (⟨2, ![R, N]⟩ : Shape).Idx) (c : d.contr.Idx), (d.lhsIdx j c 1).val = (c ⟨0, by omega⟩).val)
    (hr0 : ∀ (j : (⟨2, ![R, N]⟩ : Shape).Idx) (c : d.contr.Idx), (d.rhsIdx j c 0).val = (c ⟨0, by omega⟩).val)
    (hr1 : ∀ (j : (⟨2, ![R, N]⟩ : Shape).Idx) (c : d.contr.Idx), (d.rhsIdx j c 1).val = (j 1).val)
    (x : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (p : Fin R) (q : Fin N) :
    addf (Host.dotGeneral d none x w)
        (broadcastInDim ⟨2, ![R, N]⟩ ![0, 1] h2 (broadcastInDim ⟨2, ![1, N]⟩ ![1] h1 b)) (ix2 p q)
      = (∑ k : Fin K, x (ix2 p k) * w (ix2 k q)) + b (ix1 q) := by
  show Host.dotGeneral d none x w (ix2 p q)
      + broadcastInDim ⟨2, ![R, N]⟩ ![0, 1] h2 (broadcastInDim ⟨2, ![1, N]⟩ ![1] h1 b) (ix2 p q) = _
  rw [bcastInDim_1b_ab_apply, bcastInDim_b_1b_apply, host_mat_dot d none hr hs hl0 hl1 hr0 hr1 x w p q]

/-- The leaky rectifier on one extended real: `x` where `x ≥ z`, else `c · x`, the threshold `z` and the slope `c` given by
    their 32-bit float words (the programs compare against `0` and scale by the float nearest `0.01`). -/
def leaky (z c : BitVec 32) (x : Ideal .f32) : Ideal .f32 :=
  Scalar.select (FloatOps.cmpf (F := Ideal) .oge x (FloatOps.ofBits (F := Ideal) .f32 z)) x
    (FloatOps.mulf (F := Ideal) (FloatOps.ofBits (F := Ideal) .f32 c) x)

/-- A dense layer as one function: entry (p, q) is row `p` of `x` against column `q` of `w`, plus entry `q` of the
    one-row matrix `b`. -/
def denseRow {R K N : Nat} (x : (⟨2, ![R, K]⟩ : Shape).Idx → Ideal .f32) (w : (⟨2, ![K, N]⟩ : Shape).Idx → Ideal .f32)
    (b : (⟨2, ![1, N]⟩ : Shape).Idx → Ideal .f32) : (⟨2, ![R, N]⟩ : Shape).Idx → Ideal .f32 :=
  fun i => (∑ k : Fin K, x (ix2 (i 0) k) * w (ix2 k (i 1))) + b (ix2 (0 : Fin 1) (i 1))

/-- The matrix unit's dense layer IS `denseRow`. -/
theorem matmul_bias_eq {R K N : Nat} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (c : d.contr.Idx), (d.lhsIdx j c 0).val = (j 0).val)
    (hl1 : ∀ (j : (⟨2, ![R, N]⟩ : Shape).Idx) (c : d.contr.Idx), (d.lhsIdx j c 1).val = (c ⟨0, by omega⟩).val)
    (hr0 : ∀ (j : (⟨2, ![R, N]⟩ : Shape).Idx) (c : d.contr.Idx), (d.rhsIdx j c 0).val = (c ⟨0, by omega⟩).val)
    (hr1 : ∀ (j : (⟨2, ![R, N]⟩ : Shape).Idx) (c : d.contr.Idx), (d.rhsIdx j c 1).val = (j 1).val)
    (x : FVec Ideal ⟨2, ![R, K]⟩ .f32) (w : FVec Ideal ⟨2, ![K, N]⟩ .f32) (b : FVec Ideal ⟨2, ![1, N]⟩ .f32)
    (hx : FTy.bf16.bits < FTy.f32.bits) (hb : (⟨2, ![1, N]⟩ : Shape).Broadcasts ⟨2, ![R, N]⟩) :
    addf (matmul d none (truncf .bf16 x hx) (truncf .bf16 w hx) (constant (F := Ideal) ⟨2, ![R, N]⟩ .f32 0x00000000#32))
        (broadcastTo ⟨2, ![R, N]⟩ b hb) = denseRow x w b := by
  funext i
  obtain ⟨p, q, rfl⟩ : ∃ (p : Fin R) (q : Fin N), i = ix2 p q := ⟨i 0, i 1, eq_ix2 i⟩
  exact matmul_bias_apply d hr hs hl0 hl1 hr0 hr1 x w b hx hb p q

/-- The host's dense layer IS `denseRow` with the bias vector set up as a row. -/
theorem host_dot_bias_eq {R K N : Nat} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (c : d.contr.Idx), (d.lhsIdx j c 0).val = (j 0).val)
    (hl1 : ∀ (j : (⟨2, ![R, N]⟩ : Shape).Idx) (c : d.contr.Idx), (d.lhsIdx j c 1).val = (c ⟨0, by omega⟩).val)
    (hr0 : ∀ (j : (⟨2, ![R, N]⟩ : Shape).Idx) (c : d.contr.Idx), (d.rhsIdx j c 0).val = (c ⟨0, by omega⟩).val)
    (hr1 : ∀ (j : (⟨2, ![R, N]⟩ : Shape).Idx) (c : d.contr.Idx), (d.rhsIdx j c 1).val = (j 1).val)
    (x : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (hc : (⟨1, ![N]⟩ : Shape).ShapeCasts ⟨2, ![1, N]⟩) :
    addf (Host.dotGeneral d none x w)
        (broadcastInDim ⟨2, ![R, N]⟩ ![0, 1] h2 (broadcastInDim ⟨2, ![1, N]⟩ ![1] h1 b))
      = denseRow x w (shapeCast ⟨2, ![1, N]⟩ b hc) := by
  funext i
  obtain ⟨p, q, rfl⟩ : ∃ (p : Fin R) (q : Fin N), i = ix2 p q := ⟨i 0, i 1, eq_ix2 i⟩
  refine (host_dot_bias_apply d hr hs hl0 hl1 hr0 hr1 x w b h1 h2 p q).trans ?_
  show _ = (∑ k : Fin K, x (ix2 p k) * w (ix2 k q)) + shapeCast ⟨2, ![1, N]⟩ b hc (ix2 (0 : Fin 1) q)
  rw [shapeCast_a_1a_apply]

/-- The host's bare matrix product IS `denseRow` with any one-row matrix of zeros. -/
theorem host_dot_eq {R K N : Nat} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (c : d.contr.Idx), (d.lhsIdx j c 0).val = (j 0).val)
    (hl1 : ∀ (j : (⟨2, ![R, N]⟩ : Shape).Idx) (c : d.contr.Idx), (d.lhsIdx j c 1).val = (c ⟨0, by omega⟩).val)
    (hr0 : ∀ (j : (⟨2, ![R, N]⟩ : Shape).Idx) (c : d.contr.Idx), (d.rhsIdx j c 0).val = (c ⟨0, by omega⟩).val)
    (hr1 : ∀ (j : (⟨2, ![R, N]⟩ : Shape).Idx) (c : d.contr.Idx), (d.rhsIdx j c 1).val = (j 1).val)
    (x : FVec Ideal ⟨2, ![R, K]⟩ .f32) (w : FVec Ideal ⟨2, ![K, N]⟩ .f32)
    (b : (⟨2, ![1, N]⟩ : Shape).Idx → Ideal .f32) (hb : ∀ j, b j = (0 : EReal)) :
    Host.dotGeneral d none x w = denseRow x w b := by
  funext i
  obtain ⟨p, q, rfl⟩ : ∃ (p : Fin R) (q : Fin N), i = ix2 p q := ⟨i 0, i 1, eq_ix2 i⟩
  refine (host_mat_dot d none hr hs hl0 hl1 hr0 hr1 x w p q).trans ?_
  show _ = (∑ k : Fin K, x (ix2 p k) * w (ix2 k q)) + b (ix2 (0 : Fin 1) q)
  rw [hb, add_zero]

/-- The matrix unit's dense layer as one vector expression: narrowed operands, product from zero, bias row spread down
    the rows (the row first passed through an identity reshape, as the kernels print it). -/
def mxuDense {R K N : Nat} (d : DotDims ⟨2, ![R, K]⟩ ⟨2, ![K, N]⟩ ⟨2, ![R, N]⟩)
    (x : FVec Ideal ⟨2, ![R, K]⟩ .f32) (w : FVec Ideal ⟨2, ![K, N]⟩ .f32) (b : FVec Ideal ⟨2, ![1, N]⟩ .f32)
    (hx : FTy.bf16.bits < FTy.f32.bits) (hs : (⟨2, ![1, N]⟩ : Shape).ShapeCasts ⟨2, ![1, N]⟩)
    (hb : (⟨2, ![1, N]⟩ : Shape).Broadcasts ⟨2, ![R, N]⟩) : FVec Ideal ⟨2, ![R, N]⟩ .f32 :=
  addf (matmul d none (truncf .bf16 x hx) (truncf .bf16 w hx) (constant (F := Ideal) ⟨2, ![R, N]⟩ .f32 0x00000000#32))
    (broadcastTo ⟨2, ![R, N]⟩ (shapeCast ⟨2, ![1, N]⟩ b hs) hb)

theorem mxuDense_eq {R K N : Nat} (d : DotDims ⟨2, ![R, K]⟩ ⟨2, ![K, N]⟩ ⟨2, ![R, N]⟩)
    (hr : d.contr.rank = 1) (hs' : d.contr.size ⟨0, by omega⟩ = K)
    (hl0 : ∀ (j : (⟨2, ![R, N]⟩ : Shape).Idx) (c : d.contr.Idx), (d.lhsIdx j c 0).val = (j 0).val)
    (hl1 : ∀ (j : (⟨2, ![R, N]⟩ : Shape).Idx) (c : d.contr.Idx), (d.lhsIdx j c 1).val = (c ⟨0, by omega⟩).val)
    (hr0 : ∀ (j : (⟨2, ![R, N]⟩ : Shape).Idx) (c : d.contr.Idx), (d.rhsIdx j c 0).val = (c ⟨0, by omega⟩).val)
    (hr1 : ∀ (j : (⟨2, ![R, N]⟩ : Shape).Idx) (c : d.contr.Idx), (d.rhsIdx j c 1).val = (j 1).val)
    (x : FVec Ideal ⟨2, ![R, K]⟩ .f32) (w : FVec Ideal ⟨2, ![K, N]⟩ .f32) (b : FVec Ideal ⟨2, ![1, N]⟩ .f32)
    (hx : FTy.bf16.bits < FTy.f32.bits) (hs : (⟨2, ![1, N]⟩ : Shape).ShapeCasts ⟨2, ![1, N]⟩)
    (hb : (⟨2, ![1, N]⟩ : Shape).Broadcasts ⟨2, ![R, N]⟩) :
    mxuDense d x w b hx hs hb = denseRow x w b := by
  unfold mxuDense
  rw [shapeCast_self]
  exact matmul_bias_eq d hr hs' hl0 hl1 hr0 hr1 x w b hx hb

/-- The leaky rectifier over a whole vector, as the programs print it: compare with a splat threshold, select between the
    vector and the splat slope times the vector. -/
def leakyVec (z c : BitVec 32) (S : Shape) (v : FVec Ideal S .f32) : FVec Ideal S .f32 :=
  select (cmpf .oge v (broadcast S (FloatOps.ofBits (F := Ideal) .f32 z))) v (mulf (broadcast S (FloatOps.ofBits (F := Ideal) .f32 c)) v)

theorem leakyVec_apply (z c : BitVec 32) (S : Shape) (v : FVec Ideal S .f32) (i : S.Idx) :
    leakyVec z c S v i = leaky z c (v i) := rfl

end Idealize.ShloMosaic.ValueIdx

end
-- ==== Proof.TwoLayer.lean ====
/-
  A two-layer perceptron on the extended reals, read row by row.

  For a matrix `h` of `R` rows and 64 columns, weights `W1` (64 × 128) and `W2` (128 × 128) and one-row biases
  `B1`, `B2` (1 × 128), entry (p, q) of the result is

      tanh ( Σ_{k < 128} max( Σ_{j < 64} h[p, j] · W1[j, k] + B1[0, k] , 0 ) · W2[k, q] + B2[0, q] ).

  Row `p` of the result depends on row `p` of `h` only, so the perceptron of a block of rows is that block of rows of
  the perceptron of the whole matrix.
-/
import proofs.«154093_j17411797418332_1_alg».proof.Proof.LibDense

noncomputable section

open scoped BigOperators

namespace Cert.TwoLayer

open Idealize.ShloMosaic Idealize.ShloMosaic.ValueIdx

/-- The rectifier `z ↦ max z 0`, the zero given by its 32-bit float word. -/
def rect (z : Ideal .f32) : Ideal .f32 :=
  FloatOps.maximumf (F := Ideal) z (FloatOps.ofBits (F := Ideal) .f32 0x00000000#32)

/-- Two dense layers over `R` rows: a rectified first layer, a hyperbolic tangent after the second. -/
def layers {R : Nat} (h : (⟨2, ![R, 64]⟩ : Shape).Idx → Ideal .f32)
    (W1 : (⟨2, ![64, 128]⟩ : Shape).Idx → Ideal .f32) (B1 : (⟨2, ![1, 128]⟩ : Shape).Idx → Ideal .f32)
    (W2 : (⟨2, ![128, 128]⟩ : Shape).Idx → Ideal .f32) (B2 : (⟨2, ![1, 128]⟩ : Shape).Idx → Ideal .f32) :
    (⟨2, ![R, 128]⟩ : Shape).Idx → Ideal .f32 :=
  fun i => FloatOps.tanh (F := Ideal) (φ := .f32) (denseRow (fun j => rect (denseRow h W1 B1 j)) W2 B2 i)

/-- Entry (p, q) written out. -/
theorem layers_apply {R : Nat} (h : (⟨2, ![R, 64]⟩ : Shape).Idx → Ideal .f32)
    (W1 : (⟨2, ![64, 128]⟩ : Shape).Idx → Ideal .f32) (B1 : (⟨2, ![1, 128]⟩ : Shape).Idx → Ideal .f32)
    (W2 : (⟨2, ![128, 128]⟩ : Shape).Idx → Ideal .f32) (B2 : (⟨2, ![1, 128]⟩ : Shape).Idx → Ideal .f32)
    (p : Fin R) (q : Fin 128) :
    layers h W1 B1 W2 B2 (ix2 p q)
      = FloatOps.tanh (F := Ideal) (φ := .f32)
          ((∑ k : Fin 128, rect ((∑ j : Fin 64, h (ix2 p j) * W1 (ix2 j k)) + B1 (ix2 (0 : Fin 1) k)) * W2 (ix2 k q))
            + B2 (ix2 (0 : Fin 1) q)) := rfl

/-- Row `p` of the result is a function of row `p` of `h`: two matrices that agree on a row give the same row. -/
theorem layers_row {R R' : Nat} (h : (⟨2, ![R, 64]⟩ : Shape).Idx → Ideal .f32) (h' : (⟨2, ![R', 64]⟩ : Shape).Idx → Ideal .f32)
    (W1 : (⟨2, ![64, 128]⟩ : Shape).Idx → Ideal .f32) (B1 : (⟨2, ![1, 128]⟩ : Shape).Idx → Ideal .f32)
    (W2 : (⟨2, ![128, 128]⟩ : Shape).Idx → Ideal .f32) (B2 : (⟨2, ![1, 128]⟩ : Shape).Idx → Ideal .f32)
    (p : Fin R) (p' : Fin R') (q : Fin 128) (hh : ∀ j : Fin 64, h (ix2 p j) = h' (ix2 p' j)) :
    layers h W1 B1 W2 B2 (ix2 p q) = layers h' W1 B1 W2 B2 (ix2 p' q) := by
  rw [layers_apply, layers_apply]
  simp only [hh]

end Cert.TwoLayer

end
-- ==== Proof.KernelBlock.lean ====
/-
  The kernel body's arithmetic on one block of 2000 rows is the two-layer perceptron of that block.

  The body adds the block of `x` and the block of neighbour sums, multiplies by the first weight matrix into a zero
  accumulator, adds the first bias row, rectifies, multiplies by the second weight matrix, adds the second bias row
  and takes the hyperbolic tangent; the narrowings to a shorter float format before each product and the reshapes
  between equal shapes are identities on the extended reals.
-/
import proofs.«154093_j17411797418332_1_alg».proof.Proof.Gen.KernelIdeal.Skeleton
import proofs.«154093_j17411797418332_1_alg».proof.Proof.TwoLayer
import Idealize.ShloMosaic.Lib.Pipeline.Value

noncomputable section

open scoped BigOperators

namespace Cert.KernelIdeal.Hand

open Cert.KernelIdeal Cert.KernelIdeal.Gen Cert.TwoLayer Idealize.ShloMosaic Idealize.ShloMosaic.ValueIdx

/-! ## Where the two products read their operands -/

theorem first_l0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem first_l1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem first_r0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem first_r1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

theorem second_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem second_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem second_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem second_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-! ## The body's value -/

/-- What the body stores, from the six blocks it loads: the perceptron of the sum of the first two, with the other
    four as weights and bias rows. -/
theorem body_eq (v0 v1 : Vec Ideal S2000x64 .f32) (v5 : Vec Ideal S64x128 .f32) (v8 : Vec Ideal S1x128 .f32)
    (v10 : Vec Ideal S128x128 .f32) (v13 : Vec Ideal S1x128 .f32) :
    k0_pay1 (F := Ideal) v0 v1 v5 v8 v10 v13 = layers (addf (F := Ideal) v0 v1) v5 v8 v10 v13 := by
  unfold k0_pay1
  simp only [shapeCast_self]
  rw [matmul_bias_eq dot_S2000x64_S64x128_S2000x128_1_0_0_1_n_n rfl rfl first_l0 first_l1 first_r0 first_r1
    (addf (F := Ideal) v0 v1) v5 v8]
  rw [matmul_bias_eq dot_S2000x128_S128x128_S2000x128_1_0_0_1_n_n rfl rfl second_l0 second_l1 second_r0 second_r1 _ v10 v13]
  rfl

end Cert.KernelIdeal.Hand

end
-- ==== Proof.KernelArrays.lean ====
/-
  What the kernel's one region finds in the arrays its windows stage.

  Before the region the host gathers the rows of `x` named by the first row of the edge list and adds them up at the
  rows named by the second — the neighbour sums —, transposes the two weight matrices and sets each bias vector up as
  a one-row matrix. These are the same operations, in the same order, with which the reference starts, so each array
  is stated as the reference's stage of the same arguments.
-/
import proofs.«154093_j17411797418332_1_alg».proof.Proof.Gen.KernelIdeal.Frame
import proofs.«154093_j17411797418332_1_alg».proof.Proof.Gen.ReferenceIdeal.Read
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- Window 1's array holds the neighbour sums of `x` along the edge list. -/
theorem found_sums (c : Dev nD) :
    (V m c main_v13 : S50000x64.Idx → Ideal .f32)
      = Cert.ReferenceIdeal.Read.val_main_v13 (F := Ideal) (m ((c : Thread nD τ).loc main_arg0)) (m ((c : Thread nD τ).loc main_arg1)) := by
  dsimp only [Gen.V, Gen.hostOps0]
  after_results
  rfl

/-- Window 2's array holds the first weight matrix transposed. -/
theorem found_w1 (c : Dev nD) :
    (V m c main_v14 : S64x128.Idx → Ideal .f32)
      = Cert.ReferenceIdeal.Read.val_main_v15 (F := Ideal) (m ((c : Thread nD τ).loc main_arg2)) := by
  dsimp only [Gen.V, Gen.hostOps0]
  after_results
  rfl

/-- Window 4's array holds the second weight matrix transposed. -/
theorem found_w2 (c : Dev nD) :
    (V m c main_v15 : S128x128.Idx → Ideal .f32)
      = Cert.ReferenceIdeal.Read.val_main_v22 (F := Ideal) (m ((c : Thread nD τ).loc main_arg4)) := by
  dsimp only [Gen.V, Gen.hostOps0]
  after_results
  rfl

/-- Window 3's array holds the first bias vector as one row. -/
theorem found_b1 (c : Dev nD) :
    (V m c main_v16 : S1x128.Idx → Ideal .f32)
      = shapeCast S1x128 (m ((c : Thread nD τ).loc main_arg3) : S128.Idx → Ideal .f32) Facts₀.shapeCasts_S128_S1x128 := by
  dsimp only [Gen.V, Gen.hostOps0]
  after_results
  rfl

/-- Window 5's array holds the second bias vector as one row. -/
theorem found_b2 (c : Dev nD) :
    (V m c main_v17 : S1x128.Idx → Ideal .f32)
      = shapeCast S1x128 (m ((c : Thread nD τ).loc main_arg5) : S128.Idx → Ideal .f32) Facts₀.shapeCasts_S128_S1x128 := by
  dsimp only [Gen.V, Gen.hostOps0]
  after_results
  rfl

end Cert.KernelIdeal.Hand

end
-- ==== Proof.BlockRows.lean ====
/-
  The perceptron block by block, for any contents of the staged arrays.

  The grid has 25 points. Point `t` stages rows `2000 t … 2000 t + 1999` of the two 50000 × 64 arrays, the two weight
  matrices and the two bias rows whole, and writes back rows `2000 t … 2000 t + 1999` of the 50000 × 128 result. A row
  of the perceptron reads one row of its input, so the perceptron of point `t`'s rows is rows `2000 t …` of the
  perceptron of all 50000 rows; and row `r` of the result lies in the block of point `r / 2000`, so the 25 blocks
  cover the result.
-/
import proofs.«154093_j17411797418332_1_alg».proof.Proof.Gen.KernelIdeal.Points
import proofs.«154093_j17411797418332_1_alg».proof.Proof.Gen.KernelIdeal.Launch
import proofs.«154093_j17411797418332_1_alg».proof.Proof.TwoLayer
import Idealize.ShloMosaic.Lib.Pipeline.Value

noncomputable section

namespace Cert.KernelIdeal.Hand

open Cert.KernelIdeal Cert.KernelIdeal.Gen Cert.TwoLayer
open Idealize.ShloMosaic Idealize.ShloMosaic.TcCoe Idealize.ShloMosaic.ValueIdx Idealize.SL.Sem

/-- The perceptron of a block of 2000 rows is the same rows of the perceptron of all rows: `j` is a position in
    block number `T`, `i` the same position in the array, and the block's rows are the array's. -/
theorem block_rows (T : Nat) (x0 x1 : Vec Ideal S2000x64 .f32) (w1 w1' : Vec Ideal S64x128 .f32) (b1 b1' : Vec Ideal S1x128 .f32)
    (w2 w2' : Vec Ideal S128x128 .f32) (b2 b2' : Vec Ideal S1x128 .f32) (A0 A1 : S50000x64.Idx → Ideal .f32)
    (j : S2000x128.Idx) (i : S50000x128.Idx)
    (hi0 : (i 0).val = T * 2000 + (j 0).val) (hi1 : (i 1).val = (j 1).val)
    (h0 : ∀ (y : S2000x64.Idx) (z : S50000x64.Idx), (z 0).val = T * 2000 + (y 0).val → (z 1).val = (y 1).val → x0 y = A0 z)
    (h1 : ∀ (y : S2000x64.Idx) (z : S50000x64.Idx), (z 0).val = T * 2000 + (y 0).val → (z 1).val = (y 1).val → x1 y = A1 z)
    (hw1 : w1 = w1') (hb1 : b1 = b1') (hw2 : w2 = w2') (hb2 : b2 = b2') :
    layers (addf (F := Ideal) x0 x1) w1 b1 w2 b2 j = layers (addf (F := Ideal) A0 A1) w1' b1' w2' b2' i := by
  subst hw1 hb1 hw2 hb2
  obtain ⟨p, q, rfl⟩ : ∃ (p : Fin 2000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  obtain rfl : q' = q := Fin.ext hi1
  refine layers_row _ _ w1 b1 w2 b2 p p' q' fun k => ?_
  show x0 (ix2 p k) + x1 (ix2 p k) = A0 (ix2 p' k) + A1 (ix2 p' k)
  rw [h0 (ix2 p k) (ix2 p' k) hi0 rfl, h1 (ix2 p k) (ix2 p' k) hi0 rfl]

/-- The printed index maps over the 25 points: the two row-blocked inputs and the output are at block `t` of the
    rows and block 0 of the columns; the weights and bias rows are at block (0, 0) throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each window's block read off any contents of its array -/

/-- Window 0's block at point `t`: position `y` of the block is position `z` of the array, 2000 t rows further down. -/
theorem rows0 (A : S50000x64.Idx → Ideal .f32) (t : Fin cfg0.N) (y : S2000x64.Idx) (z : S50000x64.Idx)
    (hz0 : (z 0).val = t.val * 2000 + (y 0).val) (hz1 : (z 1).val = (y 1).val) :
    (((cfg0.win 0).blk t).view.read (Elt Ideal) A : Vec Ideal S2000x64 .f32) y = A z := by
  obtain ⟨e00, e01, -⟩ := idx_facts t
  show A (((cfg0.win 0).blk t).view.emb y) = A z
  have h : ((cfg0.win 0).blk t).view.emb y = z := by
    funext a; apply Fin.ext
    match a with
    | ⟨0, _⟩ => show win0_0.index t (0 : Fin 2) * 2000 + 1 * (y 0).val = (z 0).val; omega
    | ⟨1, _⟩ => show win0_0.index t (1 : Fin 2) * 64 + 1 * (y 1).val = (z 1).val; omega
  rw [h]

/-- Window 1's block at point `t`, likewise. -/
theorem rows1 (A : S50000x64.Idx → Ideal .f32) (t : Fin cfg0.N) (y : S2000x64.Idx) (z : S50000x64.Idx)
    (hz0 : (z 0).val = t.val * 2000 + (y 0).val) (hz1 : (z 1).val = (y 1).val) :
    (((cfg0.win 1).blk t).view.read (Elt Ideal) A : Vec Ideal S2000x64 .f32) y = A z := by
  obtain ⟨-, -, e10, e11, -⟩ := idx_facts t
  show A (((cfg0.win 1).blk t).view.emb y) = A z
  have h : ((cfg0.win 1).blk t).view.emb y = z := by
    funext a; apply Fin.ext
    match a with
    | ⟨0, _⟩ => show win0_1.index t (0 : Fin 2) * 2000 + 1 * (y 0).val = (z 0).val; omega
    | ⟨1, _⟩ => show win0_1.index t (1 : Fin 2) * 64 + 1 * (y 1).val = (z 1).val; omega
  rw [h]

/-- Window 2's block is its whole array at every point. -/
theorem whole2 (A : S64x128.Idx → Ideal .f32) (t : Fin cfg0.N) :
    (((cfg0.win 2).blk t).view.read (Elt Ideal) A : Vec Ideal S64x128 .f32) = A := by
  obtain ⟨-, -, -, -, e20, e21, -⟩ := idx_facts t
  funext y
  show A (((cfg0.win 2).blk t).view.emb y) = A y
  have h : ((cfg0.win 2).blk t).view.emb y = y := by
    funext a; apply Fin.ext
    match a with
    | ⟨0, _⟩ => show win0_2.index t (0 : Fin 2) * 64 + 1 * (y 0).val = (y 0).val; omega
    | ⟨1, _⟩ => show win0_2.index t (1 : Fin 2) * 128 + 1 * (y 1).val = (y 1).val; omega
  rw [h]

/-- Window 3's block is its whole array at every point. -/
theorem whole3 (A : S1x128.Idx → Ideal .f32) (t : Fin cfg0.N) :
    (((cfg0.win 3).blk t).view.read (Elt Ideal) A : Vec Ideal S1x128 .f32) = A := by
  obtain ⟨-, -, -, -, -, -, e30, e31, -⟩ := idx_facts t
  funext y
  show A (((cfg0.win 3).blk t).view.emb y) = A y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  rw [h]

/-- Window 4's block is its whole array at every point. -/
theorem whole4 (A : S128x128.Idx → Ideal .f32) (t : Fin cfg0.N) :
    (((cfg0.win 4).blk t).view.read (Elt Ideal) A : Vec Ideal S128x128 .f32) = A := by
  obtain ⟨-, -, -, -, -, -, -, -, e40, e41, -⟩ := idx_facts t
  funext y
  show A (((cfg0.win 4).blk t).view.emb y) = A y
  have h : ((cfg0.win 4).blk t).view.emb y = y := by
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  rw [h]

/-- Window 5's block is its whole array at every point. -/
theorem whole5 (A : S1x128.Idx → Ideal .f32) (t : Fin cfg0.N) :
    (((cfg0.win 5).blk t).view.read (Elt Ideal) A : Vec Ideal S1x128 .f32) = A := by
  obtain ⟨-, -, -, -, -, -, -, -, -, -, e50, e51, -⟩ := idx_facts t
  funext y
  show A (((cfg0.win 5).blk t).view.emb y) = A y
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 128 + 1 * (y 1).val = (y 1).val; omega
  rw [h]

/-! ## What a point writes, and the cover -/

/-- The perceptron of point `t`'s blocks, cut to the output window's block, is block `t` of the perceptron of the
    whole arrays. -/
theorem point_writes (A0 A1 : S50000x64.Idx → Ideal .f32) (W1 : S64x128.Idx → Ideal .f32) (B1 : S1x128.Idx → Ideal .f32)
    (W2 : S128x128.Idx → Ideal .f32) (B2 : S1x128.Idx → Ideal .f32) (t : Fin cfg0.N) :
    (cfg0.win 6).cut (grid0.coords t)
        (layers (addf (F := Ideal) (((cfg0.win 0).blk t).view.read (Elt Ideal) A0 : Vec Ideal S2000x64 .f32)
            (((cfg0.win 1).blk t).view.read (Elt Ideal) A1 : Vec Ideal S2000x64 .f32))
          (((cfg0.win 2).blk t).view.read (Elt Ideal) W1 : Vec Ideal S64x128 .f32)
          (((cfg0.win 3).blk t).view.read (Elt Ideal) B1 : Vec Ideal S1x128 .f32)
          (((cfg0.win 4).blk t).view.read (Elt Ideal) W2 : Vec Ideal S128x128 .f32)
          (((cfg0.win 5).blk t).view.read (Elt Ideal) B2 : Vec Ideal S1x128 .f32))
      = ((cfg0.win 6).blk t).view.read (Elt Ideal) (layers (addf (F := Ideal) A0 A1) W1 B1 W2 B2) := by
  rw [whole2, whole3, whole4, whole5]
  obtain ⟨-, -, -, -, -, -, -, -, -, -, -, -, e60, e61⟩ := idx_facts t
  funext j
  show layers (addf (F := Ideal) (((cfg0.win 0).blk t).view.read (Elt Ideal) A0 : Vec Ideal S2000x64 .f32)
      (((cfg0.win 1).blk t).view.read (Elt Ideal) A1 : Vec Ideal S2000x64 .f32)) W1 B1 W2 B2 j
    = layers (addf (F := Ideal) A0 A1) W1 B1 W2 B2 (((cfg0.win 6).blk t).view.emb j)
  refine block_rows t.val _ _ W1 W1 B1 B1 W2 W2 B2 B2 A0 A1 j (((cfg0.win 6).blk t).view.emb j) ?_ ?_
    (rows0 A0 t) (rows1 A1 t) rfl rfl rfl rfl
  · show win0_6.index t (0 : Fin 2) * 2000 + 1 * (j 0).val = t.val * 2000 + (j 0).val
    omega
  · show win0_6.index t (1 : Fin 2) * 128 + 1 * (j 1).val = (j 1).val
    omega

/-- An index of the result array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v18).slice (win0_6.rect t)).set ↔ _
  rw [View.set_slice_whole, Rect.mem_set_unit]
  exact Iff.rfl

/-- Row `r` of the result is in the block of point `r / 2000`: the 25 blocks cover the array. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, -, -, -, -, -, e60, e61⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e60]
    show (i 0).val / 2000 * 2000 ≤ (i 0).val ∧ (i 0).val < (i 0).val / 2000 * 2000 + 2000
    omega
  | ⟨1, _⟩ =>
    show win0_6.index ⟨(i 0).val / 2000, ht⟩ (1 : Fin 2) * 128 ≤ (i 1).val ∧ (i 1).val < win0_6.index ⟨(i 0).val / 2000, ht⟩ (1 : Fin 2) * 128 + 128
    rw [e61]
    omega

end Cert.KernelIdeal.Hand

end
-- ==== Proof.KernelValue.lean ====
/-
  The kernel's result array, whole.

  Each of the 25 grid points writes back the two-layer perceptron of its block of rows — block `t` of the perceptron of
  all 50000 rows — and the blocks cover the result array, so the array ends as the perceptron of `x` plus the neighbour
  sums, through the transposed weights and the bias rows the host prepared.
-/
import proofs.«154093_j17411797418332_1_alg».proof.Proof.Gen.KernelIdeal.Value
import proofs.«154093_j17411797418332_1_alg».proof.Proof.KernelBlock
import proofs.«154093_j17411797418332_1_alg».proof.Proof.KernelArrays
import proofs.«154093_j17411797418332_1_alg».proof.Proof.BlockRows

noncomputable section

namespace Cert.KernelIdeal.Hand

open Cert.KernelIdeal Cert.KernelIdeal.Gen Cert.KernelIdeal.Value Cert.TwoLayer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The perceptron of all rows, over the six staged arrays as the region finds them. -/
def whole (c : Dev nD) : S50000x128.Idx → Ideal .f32 :=
  layers (addf (F := Ideal) (V m c (Pipeline.arrRef spec0 0)) (V m c (Pipeline.arrRef spec0 1))) (V m c (Pipeline.arrRef spec0 2))
    (V m c (Pipeline.arrRef spec0 3)) (V m c (Pipeline.arrRef spec0 4)) (V m c (Pipeline.arrRef spec0 5))

/-- What point `t` writes back is block `t` of the perceptron of all rows. -/
theorem flushed_eq (c : Dev nD) (t : Fin cfg0.N) :
    (dats m 0 c).flushed 6 t = ((cfg0.win 6).blk t).view.read (Elt Ideal) (whole m c) := by
  rw [flushed6]
  unfold out0_6
  rw [View.canon_unit_zero origin]
  simp only [View.ld_unit_zero (S := S2000x64) origin, View.ld_unit_zero (S := S64x128) origin,
    View.ld_unit_zero (S := S1x128) origin, View.ld_unit_zero (S := S128x128) origin]
  rw [body_eq]
  unfold iblk whole
  exact point_writes (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) t

/-- The result array after the run is the perceptron of all rows. -/
theorem final (c : Dev nD) : (dats m 0 c).arrAt 6 cfg0.N = whole m c :=
  (dats m 0 c).arrAt_eq_of_cover 6 (whole m c) (fun t _ => flushed_eq m c t) cover

/-- The same array over the program's arguments: `x` plus its neighbour sums through the transposed weights and the
    bias rows. -/
theorem whole_eq (c : Dev nD) :
    whole m c = layers (addf (F := Ideal) (m ((c : Thread nD τ).loc main_arg0))
        (Cert.ReferenceIdeal.Read.val_main_v13 (F := Ideal) (m ((c : Thread nD τ).loc main_arg0)) (m ((c : Thread nD τ).loc main_arg1))))
      (Cert.ReferenceIdeal.Read.val_main_v15 (F := Ideal) (m ((c : Thread nD τ).loc main_arg2)))
      (shapeCast S1x128 (m ((c : Thread nD τ).loc main_arg3) : S128.Idx → Ideal .f32) Facts₀.shapeCasts_S128_S1x128)
      (Cert.ReferenceIdeal.Read.val_main_v22 (F := Ideal) (m ((c : Thread nD τ).loc main_arg4)))
      (shapeCast S1x128 (m ((c : Thread nD τ).loc main_arg5) : S128.Idx → Ideal .f32) Facts₀.shapeCasts_S128_S1x128) := by
  unfold whole
  show layers (addf (F := Ideal) (V m c main_arg0) (V m c main_v13)) (V m c main_v14) (V m c main_v16) (V m c main_v15) (V m c main_v17) = _
  rw [found_sums, found_w1, found_w2, found_b1, found_b2, V_main_arg0]

/-- The run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v18) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Hand

end
-- ==== Proof.RefValue.lean ====
/-
  The reference's result is the two-layer perceptron of `x` plus its neighbour sums.

  After the neighbour sums the reference adds them to `x`, multiplies by the transposed first weight matrix, adds
  the first bias vector (set up as a row and repeated down the rows), rectifies against a zero spread over the
  array, multiplies by the transposed second weight matrix, adds the second bias vector the same way and takes the
  hyperbolic tangent. Each product-plus-bias is a dense layer whose bias row is the vector reshaped to one row.
-/
import proofs.«154093_j17411797418332_1_alg».proof.Proof.Gen.ReferenceIdeal.Read
import proofs.«154093_j17411797418332_1_alg».proof.Proof.TwoLayer

noncomputable section

open scoped BigOperators

namespace Cert.ReferenceIdeal.Hand

open Cert.ReferenceIdeal Cert.ReferenceIdeal.Gen Cert.ReferenceIdeal.Read Cert.TwoLayer
open Idealize.ShloMosaic Idealize.ShloMosaic.ValueIdx

/-- The reference's last stage as the perceptron of its arguments. -/
theorem result_eq (x0 : (⟨S50000x64, .f32⟩ : BufTy).Contents (Elt Ideal)) (x1 : (⟨S2x800000, .i32⟩ : BufTy).Contents (Elt Ideal))
    (x2 : (⟨S128x64, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (hc : S128.ShapeCasts S1x128) :
    val_main_v27 (F := Ideal) x0 x1 x2 x3 x4 x5
      = layers (addf (F := Ideal) x0 (val_main_v13 (F := Ideal) x0 x1)) (val_main_v15 (F := Ideal) x2)
          (shapeCast S1x128 (x3 : S128.Idx → Ideal .f32) hc) (val_main_v22 (F := Ideal) x4)
          (shapeCast S1x128 (x5 : S128.Idx → Ideal .f32) hc) := by
  have first : val_main_v19 (F := Ideal) x0 x1 x2 x3
      = denseRow (val_main_v14 (F := Ideal) x0 x1) (val_main_v15 (F := Ideal) x2) (shapeCast S1x128 (x3 : S128.Idx → Ideal .f32) hc) :=
    host_dot_bias_eq dot_S50000x64_S64x128_S50000x128_1_0_0_1_n_n rfl rfl lhs_main_v16_0 lhs_main_v16_1 rhs_main_v16_0
      rhs_main_v16_1 (val_main_v14 (F := Ideal) x0 x1) (val_main_v15 (F := Ideal) x2) x3 Facts₀.bcast_S128_S1x128_1
      Facts₀.bcast_S1x128_S50000x128_0_1 hc
  have second : val_main_v26 (F := Ideal) x0 x1 x2 x3 x4 x5
      = denseRow (val_main_v21 (F := Ideal) x0 x1 x2 x3) (val_main_v22 (F := Ideal) x4) (shapeCast S1x128 (x5 : S128.Idx → Ideal .f32) hc) :=
    host_dot_bias_eq dot_S50000x128_S128x128_S50000x128_1_0_0_1_n_n rfl rfl lhs_main_v23_0 lhs_main_v23_1 rhs_main_v23_0
      rhs_main_v23_1 (val_main_v21 (F := Ideal) x0 x1 x2 x3) (val_main_v22 (F := Ideal) x4) x5 Facts₀.bcast_S128_S1x128_1
      Facts₀.bcast_S1x128_S50000x128_0_1 hc
  have rectified : val_main_v21 (F := Ideal) x0 x1 x2 x3
      = fun j => rect (denseRow (val_main_v14 (F := Ideal) x0 x1) (val_main_v15 (F := Ideal) x2) (shapeCast S1x128 (x3 : S128.Idx → Ideal .f32) hc) j) := by
    funext j
    rw [val_main_v21_apply, first, val_main_v20_apply, val_main_cst_1_apply]
    rfl
  unfold val_main_v27
  rw [second, rectified]
  rfl

end Cert.ReferenceIdeal.Hand

end
-- ==== Proof.lean ====
/-
  A graph-isomorphism-network layer: each node's features `x` plus the sum of its neighbours' features (gathered
  along the edge list and added up per target node), through a two-layer perceptron — 64 → 128 with a rectifier,
  128 → 128 with a hyperbolic tangent.

  The kernel computes the neighbour sums, the transposed weights and the bias rows on the host, exactly as the
  reference does, and runs the perceptron in 25 blocks of 2000 rows on the matrix unit; the reference runs it as two
  whole matrix products. On the extended reals the matrix unit's product into a zero accumulator and the host's
  `dot_general` are the same sums, narrowing a float format is the identity, and a row of the perceptron reads one
  row of its input, so the 25 blocks assemble to the reference's result. No law used needs the inputs finite.

  The three frames are the generated ones (the reference's is its generated run with the result dropped); the
  idealization rewrote nothing, so `preserves` is trivial.
-/
import proofs.«154093_j17411797418332_1_alg».proof.Defs
import proofs.«154093_j17411797418332_1_alg».proof.Proof.Gen.Kernel
import proofs.«154093_j17411797418332_1_alg».proof.Proof.Gen.Kernel.Skeleton
import proofs.«154093_j17411797418332_1_alg».proof.Proof.Gen.Kernel.Launch
import proofs.«154093_j17411797418332_1_alg».proof.Proof.Gen.Kernel.Points
import proofs.«154093_j17411797418332_1_alg».proof.Proof.Gen.Kernel.Frame
import proofs.«154093_j17411797418332_1_alg».proof.Proof.Gen.KernelIdeal
import proofs.«154093_j17411797418332_1_alg».proof.Proof.Gen.KernelIdeal.Skeleton
import proofs.«154093_j17411797418332_1_alg».proof.Proof.Gen.KernelIdeal.Launch
import proofs.«154093_j17411797418332_1_alg».proof.Proof.Gen.KernelIdeal.Points
import proofs.«154093_j17411797418332_1_alg».proof.Proof.Gen.KernelIdeal.Frame
import proofs.«154093_j17411797418332_1_alg».proof.Proof.Gen.ReferenceIdeal
import proofs.«154093_j17411797418332_1_alg».proof.Proof.Gen.Pre_finite_inputs
import proofs.«154093_j17411797418332_1_alg».proof.Proof.Gen.KernelIdeal.Value
import proofs.«154093_j17411797418332_1_alg».proof.Proof.Gen.ReferenceIdeal.Run
import proofs.«154093_j17411797418332_1_alg».proof.Proof.Gen.ReferenceIdeal.Read
import proofs.«154093_j17411797418332_1_alg».proof.Proof.KernelValue
import proofs.«154093_j17411797418332_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the perceptron of `x` plus its neighbour sums: the kernel's array block by block, the
    reference's as its last stage. -/
theorem algebraic : Cert.algebraic_KernelIdeal_ReferenceIdeal := by
  intro m ρ m' ρ' _ hagree
  refine ⟨fun c => Cert.KernelIdeal.Hand.whole m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  show _ = Cert.KernelIdeal.Hand.whole m c
  rw [a0, a1, a2, a3, a4, a5, Cert.ReferenceIdeal.Read.val_main_v27_eq,
    Cert.ReferenceIdeal.Hand.result_eq _ _ _ _ _ _ Cert.KernelIdeal.Facts₀.shapeCasts_S128_S1x128,
    Cert.KernelIdeal.Hand.whole_eq]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
